-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x32 .f32) (main_arg1 : FVec F S16384x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  main_v8
-- ==== Kernel.lean ====
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S2048x32 : Shape := ⟨2, ![2048, 32]⟩
abbrev S1024x32 : Shape := ⟨2, ![1024, 32]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩

abbrev nBuf : Space → Nat
  | .hbm => 22
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x32, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S1x16384, .f32⟩
  | .hbm, ⟨20, _⟩ => ⟨S16384x1, .f32⟩
  | .hbm, ⟨21, _⟩ => ⟨S16384, .f32⟩
  | .local _ .vmem, ⟨0, _⟩ => ⟨S2048x32, .f32⟩
  | .local _ .vmem, ⟨1, _⟩ => ⟨S2048x32, .f32⟩
  | .local _ .vmem, ⟨2, _⟩ => ⟨S1024x32, .f32⟩
  | .local _ .vmem, ⟨3, _⟩ => ⟨S1024x32, .f32⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1, .f32⟩
  | .local _ .vmem, ⟨9, _⟩ => ⟨S2048x1, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S16384x32_S16384_d1 : S16384x32.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S1x16384 : S16384x1.ShapeCasts S1x16384
  inb_S2048x1_S2048x1_0_0 : ∀ a, (![0, 0] : Fin 2 → Nat) a + S2048x1.size a ≤ S2048x1.size a
  h_S2048x1 : 0 < S2048x1.numel
  inb_S2048x32_S2048x32_0_0 : ∀ a, (![0, 0] : Fin 2 → Nat) a + S2048x32.size a ≤ S2048x32.size a
  h_S2048x32 : 0 < S2048x32.numel
  inb_S1024x32_S1024x32_0_0 : ∀ a, (![0, 0] : Fin 2 → Nat) a + S1024x32.size a ≤ S1024x32.size a
  h_S1024x32 : 0 < S1024x32.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  shapeCasts_S2048x1_S2048x1 : S2048x1.ShapeCasts S2048x1
  shapeCasts_S16384x1_S16384 : S16384x1.ShapeCasts S16384
  dot_S2048x32_S1024x32_S2048x1024_1_1_0_0_n_n_wf : DotDims.WF S2048x32 S1024x32 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S16384x32.size a
  hwx0_0 : ∀ i : grid0.Coords, EltTy.bits .f32 = 32 ∨ (Rect.block (s := S16384x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S16384x32.size a
  hwx0_1 : ∀ i : grid0.Coords, EltTy.bits .f32 = 32 ∨ (Rect.block (s := S16384x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)

variable [Facts₀]

def dot_S2048x32_S1024x32_S2048x1024_1_1_0_0_n_n : DotDims S2048x32 S1024x32 S2048x1024 where
  lhsContracting := [1]
  rhsContracting := [1]
  lhsNonContracting := [0]
  rhsNonContracting := [0]
  lhsBatch := []
  rhsBatch := []
  wf := dot_S2048x32_S1024x32_S2048x1024_1_1_0_0_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S32x16384 : Shape := ⟨2, ![32, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x32, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S32x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S16384x32_S16384_d1 : S16384x32.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x32_S32x16384_1_0 : S16384x32.Transposes [1, 0] S32x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  dot_S16384x32_S32x16384_S16384x16384_1_0_0_1_n_n_wf : DotDims.WF S16384x32 S32x16384 S16384x16384 [1] [0] [0] [1] [] []

variable [Facts₀]

def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.Pieces.lean ====
/-
  What one run of the kernel body leaves in the output block, in each of its three control cases, as a pure
  function of the blocks it loads: the body's covering stores read back. The output block holds a column of
  2048 running row sums; a first column block resets it, every block adds its row sums, the last block scales.
-/
import proofs.«172552_j82635170775443_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Offsets `(0, 0)` are the zero offsets. -/
theorem hz : (![0, 0] : Fin 2 → Nat) = fun _ => 0 := funext fun a => by fin_cases a <;> rfl

/-- A middle column block `0 < j < 15`: the body leaves the running sum it found plus this block's row sums. -/
theorem out_B (c : Dev nD) (i : grid0.Coords) (a2 : Memref sig .tc .vmem S2048x32 .f32) (h2 : a2.IsWhole) (a3 : Memref sig .tc .vmem S1024x32 .f32) (h3 : a3.IsWhole) (a4 : Memref sig .tc .vmem S2048x1 .f32) (h4 : a4.IsWhole) (a5 : Memref sig .tc .vmem S1x1024 .f32) (h5 : a5.IsWhole) (a6 : Memref sig .tc .vmem S2048x1 .f32) (h6 : a6.IsWhole) (hc0 : ¬cond0_0 i) (hc1 : ¬cond0_1 i)
    (x0 : Vec F S2048x32 .f32) (x1 : Vec F S1024x32 .f32) (x2 : Vec F S2048x1 .f32) (x3 : Vec F S1x1024 .f32) (xo4 : Vec F S2048x1 .f32) :
    out0_B_4 c i a2 h2 a3 h3 a4 h4 a5 h5 a6 h6 hc0 hc1 x0 x1 x2 x3 xo4 = k0_pay2 x0 x1 x3 xo4 := by
  unfold out0_B_4
  rw [View.read_writes_eq_canon _ _ _ (cover0_B_4 c i a2 h2 a3 h3 a4 h4 a5 h5 a6 h6 hc0 hc1 x0 x1 x2 x3 xo4)]
  unfold kernelRun0_B
  dsimp only
  rw [View.canon_unit_zero hz]
  simp only [View.readAt_eq_ld, h2.read_unread, h3.read_unread, h5.read_unread, h6.read_unread,
    View.ld_unit_zero (S := S2048x32) hz, View.ld_unit_zero (S := S1024x32) hz, View.ld_unit_zero (S := S1x1024) hz,
    View.ld_unit_zero (S := S2048x1) hz]

/-- The first column block `j = 0`: the running sum is reset to zero, then this block's row sums are added. -/
theorem out_A (c : Dev nD) (i : grid0.Coords) (a2 : Memref sig .tc .vmem S2048x32 .f32) (h2 : a2.IsWhole) (a3 : Memref sig .tc .vmem S1024x32 .f32) (h3 : a3.IsWhole) (a4 : Memref sig .tc .vmem S2048x1 .f32) (h4 : a4.IsWhole) (a5 : Memref sig .tc .vmem S1x1024 .f32) (h5 : a5.IsWhole) (a6 : Memref sig .tc .vmem S2048x1 .f32) (h6 : a6.IsWhole) (hc0 : cond0_0 i) (hc1 : ¬cond0_1 i)
    (x0 : Vec F S2048x32 .f32) (x1 : Vec F S1024x32 .f32) (x2 : Vec F S2048x1 .f32) (x3 : Vec F S1x1024 .f32) :
    out0_A_4 c i a2 h2 a3 h3 a4 h4 a5 h5 a6 h6 hc0 hc1 x0 x1 x2 x3 = k0_pay2 x0 x1 x3 (k0_pay1 (F := F)) := by
  unfold out0_A_4
  rw [View.read_writes_eq_canon _ _ _ (cover0_A_4 c i a2 h2 a3 h3 a4 h4 a5 h5 a6 h6 hc0 hc1 x0 x1 x2 x3)]
  unfold kernelRun0_A
  dsimp only
  sl_unfold_words
  rw [View.canon_cons_unit_zero (S := S2048x1) hz, View.readCov_unit_zero (S := S2048x1) _ hz]
  simp only [View.readAt_eq_ld, h2.read_unread, h3.read_unread, h5.read_unread,
    View.ld_unit_zero (S := S2048x32) hz, View.ld_unit_zero (S := S1024x32) hz, View.ld_unit_zero (S := S1x1024) hz]

/-- The last column block `j = 15`: this block's row sums are added, and the total is scaled by `exp hx` and `1/n`. -/
theorem out_C (c : Dev nD) (i : grid0.Coords) (a2 : Memref sig .tc .vmem S2048x32 .f32) (h2 : a2.IsWhole) (a3 : Memref sig .tc .vmem S1024x32 .f32) (h3 : a3.IsWhole) (a4 : Memref sig .tc .vmem S2048x1 .f32) (h4 : a4.IsWhole) (a5 : Memref sig .tc .vmem S1x1024 .f32) (h5 : a5.IsWhole) (a6 : Memref sig .tc .vmem S2048x1 .f32) (h6 : a6.IsWhole) (hc0 : ¬cond0_0 i) (hc1 : cond0_1 i)
    (x0 : Vec F S2048x32 .f32) (x1 : Vec F S1024x32 .f32) (x2 : Vec F S2048x1 .f32) (x3 : Vec F S1x1024 .f32) (xo4 : Vec F S2048x1 .f32) :
    out0_C_4 c i a2 h2 a3 h3 a4 h4 a5 h5 a6 h6 hc0 hc1 x0 x1 x2 x3 xo4 = k0_pay3 (k0_pay2 x0 x1 x3 xo4) x2 := by
  unfold out0_C_4
  rw [View.read_writes_eq_canon _ _ _ (cover0_C_4 c i a2 h2 a3 h3 a4 h4 a5 h5 a6 h6 hc0 hc1 x0 x1 x2 x3 xo4)]
  unfold kernelRun0_C
  dsimp only
  sl_unfold_words
  rw [View.canon_cons_unit_zero (S := S2048x1) hz, View.readCov_unit_zero (S := S2048x1) _ hz]
  simp only [View.readAt_eq_ld, h2.read_unread, h3.read_unread, h4.read_unread, h5.read_unread, h6.read_unread,
    View.ld_unit_zero (S := S2048x32) hz, View.ld_unit_zero (S := S1024x32) hz, View.ld_unit_zero (S := S1x1024) hz,
    View.ld_unit_zero (S := S2048x1) hz]

end Cert.KernelIdeal.Pieces
end
-- ==== Proof.Payload.lean ====
/-
  The body's arithmetic read at one entry, over the extended reals. One run of the body adds to each of the 2048 running
  row sums the sum, over the 1024 columns of the current column block, of `exp (⟨x_p, y_q⟩ + hy_q)`; the last run multiplies
  the total by `exp hx_p` and by the constant `2⁻¹⁴`.
-/
import proofs.«172552_j82635170775443_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.Payload

open Cert.KernelIdeal Cert.KernelIdeal.Gen

/-- The zero block a first column block stores. -/
theorem pay1_apply (i : S2048x1.Idx) : k0_pay1 (F := Ideal) i = 0 := by
  show Ideal.ofBits .f32 0x00000000#32 = 0
  exact Ideal.ofBits_zero_f32

/-- Row `p` of the 2048 × 1024 score tile with column `q` put back: entry `(p, q)`. -/
theorem lift_eq (p : Fin 2048) (q : Fin 1024) :
    reduces_S2048x1024_S2048.lift (ix1 p) q = ix2 p q :=
  funext fun a => Fin.ext (by match a with | ⟨0, _⟩ => rfl | ⟨1, _⟩ => rfl)

/-- The tile's contraction: both operands are contracted along their second axis, and keep their first. -/
abbrev DD : DotDims S2048x32 S1024x32 S2048x1024 := dot_S2048x32_S1024x32_S2048x1024_1_1_0_0_n_n

theorem lhs_0 (i : S2048x1024.Idx) (q : DD.contr.Idx) : (DD.lhsIdx i q 0).val = (i 0).val := by
  unfold DotDims.lhsIdx
  rw [dif_neg (show ¬(0 : Fin S2048x32.rank) ∈ DD.lhsBatch by decide), dif_pos (show (0 : Fin S2048x32.rank) ∈ DD.lhsNonContracting by decide)]
  rfl
theorem lhs_1 (i : S2048x1024.Idx) (q : DD.contr.Idx) : (DD.lhsIdx i q 1).val = (q ⟨0, by decide⟩).val :=
  DD.lhsIdx_val_of_single rfl i q
theorem rhs_0 (i : S2048x1024.Idx) (q : DD.contr.Idx) : (DD.rhsIdx i q 0).val = (i 1).val := by
  unfold DotDims.rhsIdx
  rw [dif_neg (show ¬(0 : Fin S1024x32.rank) ∈ DD.rhsBatch by decide), dif_pos (show (0 : Fin S1024x32.rank) ∈ DD.rhsNonContracting by decide)]
  rfl
theorem rhs_1 (i : S2048x1024.Idx) (q : DD.contr.Idx) : (DD.rhsIdx i q 1).val = (q ⟨0, by decide⟩).val :=
  DD.rhsIdx_val_of_single rfl i q

/-- Entry `(p, q)` of the score tile `x yᵀ`: the inner product of row `p` of `x` and row `q` of `y`. -/
theorem tile_apply (x0 : FVec Ideal S2048x32 .f32) (x1 : FVec Ideal S1024x32 .f32) (p : Fin 2048) (q : Fin 1024) :
    matmul DD (some .fp32) x0 x1 (constant S2048x1024 .f32 0x00000000#32) (ix2 p q)
      = ∑ k : Fin 32, x0 (ix2 p k) * x1 (ix2 q k) := by
  simp only [matmul]
  rw [Ideal.matmul_constant_zero_apply, ← Equiv.sum_comp (ValueIdx.contrEquiv1 DD 32 rfl rfl).symm]
  refine Finset.sum_congr rfl fun k _ => ?_
  have hk := ValueIdx.contrEquiv1_symm_val DD 32 rfl rfl k
  have el : DD.lhsIdx (ix2 p q) ((ValueIdx.contrEquiv1 DD 32 rfl rfl).symm k) = ix2 p k := funext fun a => Fin.ext (by
    match a with
    | ⟨0, _⟩ => exact lhs_0 _ _
    | ⟨1, _⟩ => exact (lhs_1 _ _).trans hk)
  have er : DD.rhsIdx (ix2 p q) ((ValueIdx.contrEquiv1 DD 32 rfl rfl).symm k) = ix2 q k := funext fun a => Fin.ext (by
    match a with
    | ⟨0, _⟩ => exact rhs_0 _ _
    | ⟨1, _⟩ => exact (rhs_1 _ _).trans hk)
  rw [el, er]

/-- The row `hy` broadcast down the tile reads its column's entry. -/
theorem bcast_apply (x3 : Vec Ideal S1x1024 .f32) (p : Fin 2048) (q : Fin 1024) :
    broadcastTo S2048x1024 (shapeCast S1x1024 x3 shapeCasts_S1x1024_S1x1024) broadcasts_S1x1024_S2048x1024 (ix2 p q)
      = x3 (ix2 0 q) := by
  rw [shapeCast_self]
  exact broadcastTo_apply x3 broadcasts_S1x1024_S2048x1024 (ix2 p q) (ix2 0 q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])

/-- What one run of the body adds to row `p`'s running sum: the sum over the block's 1024 columns of
    `exp (⟨x_p, y_q⟩ + hy_q)`. -/
def blockAdd (x0 : Vec Ideal S2048x32 .f32) (x1 : Vec Ideal S1024x32 .f32) (x3 : Vec Ideal S1x1024 .f32) (p : Fin 2048) : EReal :=
  ∑ q : Fin 1024, Ideal.exp ((∑ k : Fin 32, x0 (ix2 p k) * x1 (ix2 q k)) + x3 (ix2 0 q))

/-- One run of the body at row `p`: the running sum it found plus the block's addend. -/
theorem pay2_apply (x0 : Vec Ideal S2048x32 .f32) (x1 : Vec Ideal S1024x32 .f32) (x3 : Vec Ideal S1x1024 .f32)
    (acc : Vec Ideal S2048x1 .f32) (p : Fin 2048) (z : Fin 1) :
    k0_pay2 (F := Ideal) x0 x1 x3 acc (ix2 p z) = acc (ix2 p z) + blockAdd x0 x1 x3 p := by
  unfold k0_pay2 blockAdd
  refine congrArg₂ (· + ·) ?_ ?_
  · exact congrFun (shapeCast_self acc _) _
  · refine (shapeCast_apply _ _ (ix2 p z) (ix1 p) ?_).trans ?_
    · rw [Shape.rowMajor_val_one, Shape.rowMajor_val_two]
      show p.val = p.val * 1 + z.val
      omega
    · refine (Ideal.multiReduction_add_single _ _ _ _ _ (ix1 p)).trans ?_
      refine Finset.sum_congr rfl fun q _ => ?_
      refine (congrArg _ (lift_eq p q)).trans ?_
      show Ideal.exp (matmul (F := Ideal) DD (some .fp32) x0 x1 (constant (F := Ideal) S2048x1024 .f32 0x00000000#32) (ix2 p q)
        + broadcastTo S2048x1024 (shapeCast S1x1024 x3 shapeCasts_S1x1024_S1x1024) broadcasts_S1x1024_S2048x1024 (ix2 p q)) = _
      exact congrArg Ideal.exp (congrArg₂ (· + ·) (tile_apply x0 x1 p q) (bcast_apply x3 p q))

/-- The last run's scaling: the total times `exp hx_p` times the constant `2⁻¹⁴`. -/
theorem pay3_apply (a : Vec Ideal S2048x1 .f32) (x2 : Vec Ideal S2048x1 .f32) (i : S2048x1.Idx) :
    k0_pay3 (F := Ideal) a x2 i = (a i * Ideal.exp (x2 i)) * Ideal.ofBits .f32 0x38800000#32 := by
  unfold k0_pay3
  show (shapeCast S2048x1 a _ i * Ideal.exp (shapeCast S2048x1 x2 _ i)) * Ideal.ofBits .f32 0x38800000#32 = _
  rw [shapeCast_self, shapeCast_self]

end Cert.KernelIdeal.Payload
end
-- ==== Proof.Spec.lean ====
/-
  The Gaussian kernel density score as one function of the two point sets, entry by entry, over the extended reals, in the
  two arrangements the two programs compute it in, and the law that joins them on finite inputs.

  With `‖a‖²` the squared norm of a row, `⟨x, y⟩` the inner product of two rows, `c` the normalising constant and
  `n = 16384` the number of points, the reference computes, for each row `x_r`,
      (Σ_j exp (-½ · ((‖x_r‖² + ‖y_j‖²) - 2 · ⟨x_r, y_j⟩) - c)) / n
  and the kernel
      ((Σ_j exp (⟨x_r, y_j⟩ + (-½ · ‖y_j‖² - c))) · exp (-½ · ‖x_r‖²)) · n⁻¹,
  the sum over `j` taken sixteen column blocks of 1024 at a time. On real inputs the exponent splits,
  `exp (a + b) = exp a · exp b`, the factor that does not depend on `j` leaves the sum, and `2⁻¹⁴ = 1 / 16384` exactly.
-/
import Idealize.ShloMosaic.PureOps.Ideal
import Idealize.ShloMosaic.PureOps.Ideal.Laws
import Idealize.ShloMosaic.Lib.ValueIdx

noncomputable section

namespace Cert.Kde

open Idealize.ShloMosaic Idealize.ShloMosaic.ValueIdx

/-- A 16384 × 32 array of extended reals: one point per row. -/
abbrev Mat : Type := (⟨2, ![16384, 32]⟩ : Shape).Idx → EReal

/-! ## The constants both programs spell -/

/-- `-0.5`. -/
theorem ofBits_mhalf : Ideal.ofBits .f32 0xBF000000#32 = ((-(1 / 2) : ℝ) : EReal) := by
  simp [Ideal.ofBits, Ideal.ieee, -EReal.coe_mul]; norm_num

/-- `2.0`. -/
theorem ofBits_two : Ideal.ofBits .f32 0x40000000#32 = ((2 : ℝ) : EReal) := by
  simp [Ideal.ofBits, Ideal.ieee, -EReal.coe_mul]; norm_num

/-- `16384.0`, the reference's divisor. -/
theorem ofBits_count : Ideal.ofBits .f32 0x46800000#32 = ((16384 : ℝ) : EReal) := by
  simp [Ideal.ofBits, Ideal.ieee, -EReal.coe_mul]; norm_num

/-- `2⁻¹⁴`, the kernel's scale: exactly the reciprocal of `16384`. -/
theorem ofBits_invCount : Ideal.ofBits .f32 0x38800000#32 = ((1 / 16384 : ℝ) : EReal) := by
  simp [Ideal.ofBits, Ideal.ieee, -EReal.coe_mul]; norm_num

/-- The normalising constant `(d/2) · log (2π)` rounded to a float is a finite number; its value is never needed, since both
    programs subtract the same one. -/
theorem ofBits_logc : ∃ c : ℝ, Ideal.ofBits .f32 0x41EB3F8E#32 = (c : EReal) := by
  have h : ¬ ((0x41EB3F8E#32 : BitVec 32).extractLsb' 23 8).toNat = 2 ^ 8 - 1 := by decide
  show ∃ c : ℝ, Ideal.ieee 8 23 (0x41EB3F8E#32 : BitVec 32) = (c : EReal)
  unfold Ideal.ieee
  dsimp only
  rw [if_neg h]
  split_ifs <;> exact ⟨_, rfl⟩

/-! ## The two arrangements -/

/-- The squared norm of row `r`, as both programs sum it: zero plus the sum of the squares. -/
def sqn (A : Mat) (r : Fin 16384) : EReal :=
  Ideal.ofBits .f32 0x00000000#32 + ∑ k : Fin 32, A (ix2 r k) * A (ix2 r k)

/-- The inner product of row `r` of `X` and row `j` of `Y`. -/
def dotp (X Y : Mat) (r j : Fin 16384) : EReal := ∑ k : Fin 32, X (ix2 r k) * Y (ix2 j k)

/-- The reference: the sum over all points of the Gaussian density at their squared distance, divided by their number. -/
def ref (X Y : Mat) (r : Fin 16384) : EReal :=
  Ideal.div
    (Ideal.ofBits .f32 0x00000000#32
      + ∑ j : Fin 16384, Ideal.exp (Ideal.ofBits .f32 0xBF000000#32
            * ((sqn X r + sqn Y j) - Ideal.ofBits .f32 0x40000000#32 * dotp X Y r j)
          - Ideal.ofBits .f32 0x41EB3F8E#32))
    (Ideal.ofBits .f32 0x46800000#32)

/-- The part of the log density that depends on `x_r` alone: `-½ ‖x_r‖²`. -/
def hx (X : Mat) (r : Fin 16384) : EReal := Ideal.ofBits .f32 0xBF000000#32 * sqn X r

/-- The part that depends on `y_j` alone, with the normalising constant: `-½ ‖y_j‖² - c`. -/
def hy (Y : Mat) (j : Fin 16384) : EReal :=
  Ideal.ofBits .f32 0xBF000000#32 * sqn Y j - Ideal.ofBits .f32 0x41EB3F8E#32

/-- One term of the kernel's sum. -/
def term (X Y : Mat) (r j : Fin 16384) : EReal := Ideal.exp (dotp X Y r j + hy Y j)

/-- The kernel: the sum with the `x_r`-only factor applied once at the end, scaled by `2⁻¹⁴`. -/
def ker (X Y : Mat) (r : Fin 16384) : EReal :=
  ((∑ j : Fin 16384, term X Y r j) * Ideal.exp (hx X r)) * Ideal.ofBits .f32 0x38800000#32

/-! ## The sum, sixteen column blocks at a time -/

/-- A natural number as a row number (numbers past the last row wrap; none is ever used). -/
def row (n : ℕ) : Fin 16384 := ⟨n % 16384, Nat.mod_lt _ (by decide)⟩

theorem row_of_lt {n : ℕ} (h : n < 16384) : row n = ⟨n, h⟩ := Fin.ext (Nat.mod_eq_of_lt h)

theorem row_val (j : Fin 16384) : row j.val = j := Fin.ext (Nat.mod_eq_of_lt j.isLt)

/-- What column block `b` adds to row `r`'s sum: the terms of its 1024 columns. -/
def blockSum (X Y : Mat) (r : Fin 16384) (b : ℕ) : EReal :=
  ∑ q : Fin 1024, term X Y r (row (1024 * b + q.val))

/-- Summing 16 blocks of 1024 consecutive terms is summing all 16384. -/
theorem sum_blocks {M : Type*} [AddCommMonoid M] (f : ℕ → M) :
    ∑ b ∈ Finset.range 16, ∑ q : Fin 1024, f (1024 * b + q.val) = ∑ j : Fin 16384, f j.val := by
  rw [Finset.sum_range (fun b => ∑ q : Fin 1024, f (1024 * b + q.val))]
  rw [← Fintype.sum_prod_type' (f := fun (b : Fin 16) (q : Fin 1024) => f (1024 * b.val + q.val))]
  refine Fintype.sum_equiv (finProdFinEquiv (m := 16) (n := 1024)) _ (fun j : Fin 16384 => f j.val) (fun bq => ?_)
  obtain ⟨b, q⟩ := bq
  show f (1024 * b.val + q.val) = f (q.val + 1024 * b.val)
  rw [Nat.add_comm]

/-- The sixteen block sums of a row add up to the row's whole sum. -/
theorem sum_blockSum (X Y : Mat) (r : Fin 16384) :
    ∑ b ∈ Finset.range 16, blockSum X Y r b = ∑ j : Fin 16384, term X Y r j := by
  unfold blockSum
  rw [sum_blocks (fun n => term X Y r (row n))]
  exact Finset.sum_congr rfl fun j _ => by rw [row_val]

/-! ## The law -/

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- On arrays of real numbers the two arrangements agree. -/
theorem ker_eq_ref (x y : (⟨2, ![16384, 32]⟩ : Shape).Idx → ℝ) (r : Fin 16384) :
    ker (fun i => (x i : EReal)) (fun i => (y i : EReal)) r = ref (fun i => (x i : EReal)) (fun i => (y i : EReal)) r := by
  obtain ⟨c, hc⟩ := ofBits_logc
  have hsq : ∀ (a : (⟨2, ![16384, 32]⟩ : Shape).Idx → ℝ) (s : Fin 16384),
      sqn (fun i => (a i : EReal)) s = ((∑ k : Fin 32, a (ix2 s k) * a (ix2 s k) : ℝ) : EReal) := fun a s => by
    unfold sqn
    rw [Ideal.ofBits_zero_f32, zero_add, coe_sum]
    exact Finset.sum_congr rfl fun k _ => (EReal.coe_mul _ _).symm
  have hin : ∀ j : Fin 16384, dotp (fun i => (x i : EReal)) (fun i => (y i : EReal)) r j
      = ((∑ k : Fin 32, x (ix2 r k) * y (ix2 j k) : ℝ) : EReal) := fun j => by
    unfold dotp
    rw [coe_sum]
    exact Finset.sum_congr rfl fun k _ => (EReal.coe_mul _ _).symm
  unfold ker ref term hx hy
  simp only [hsq, hin, hc, ofBits_mhalf, ofBits_two, ofBits_count, ofBits_invCount, Ideal.ofBits_zero_f32, zero_add,
    ← EReal.coe_mul, ← EReal.coe_add, ← EReal.coe_sub, Ideal.exp_coe, ← coe_sum,
    Ideal.div_coe (by norm_num : (16384 : ℝ) ≠ 0)]
  refine congrArg _ ?_
  rw [Finset.sum_mul]
  refine congrArg (· * (1 / 16384 : ℝ)) (Finset.sum_congr rfl fun j _ => ?_)
  rw [← Real.exp_add]
  refine congrArg Real.exp ?_
  ring

end Cert.Kde

end
-- ==== Proof.Blocks.lean ====
/-
  The four input blocks of a grid point, read one entry at a time off the arrays the region finds. Grid point `t` is row
  block `t / 16` (2048 rows of `X` and of the column `hx`) and column block `t % 16` (1024 rows of `Y` and entries of the
  row `hy`). The column `hx = -½ ‖x_r‖²` and the row `hy = -½ ‖y_j‖² - c` are computed by the program before the region.
-/
import proofs.«172552_j82635170775443_2_alg».proof.Proof.Gen.KernelIdeal.Frame
import proofs.«172552_j82635170775443_2_alg».proof.Proof.Spec
import proofs.«172552_j82635170775443_2_alg».proof.Proof.Payload
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.ValueIdx

namespace Cert.KernelIdeal.Blocks

open Cert.KernelIdeal Cert.KernelIdeal.Gen Cert.Kde

variable (m : (ℓ : Loc nD τ sig) → Buf (Elt Ideal) ℓ)

/-- The first point set, as launched. -/
abbrev Xa (c : Dev nD) : Mat := m ((c : Thread nD τ).loc main_arg0)
/-- The second point set, as launched. -/
abbrev Ya (c : Dev nD) : Mat := m ((c : Thread nD τ).loc main_arg1)

/-! ## The two arrays the program computes before the region -/

/-- Row `r` of a 16384 × 32 array with column `k` put back: entry `(r, k)`. -/
theorem lift_row (h : S16384x32.Reduces [1] S16384) (r : Fin 16384) (k : Fin 32) : h.lift (ix1 r) k = ix2 r k :=
  funext fun a => Fin.ext (by match a with | ⟨0, _⟩ => rfl | ⟨1, _⟩ => rfl)

/-- The host's row sum of squares is the squared norm. -/
theorem sqn_read (A : Mat) (r : Fin 16384) :
    Host.reduceAdd (F := Ideal) (mulf A A) (constant (F := Ideal) S_ .f32 0x00000000#32) reducesTo_S16384x32_S16384_d1 h_S_ (ix1 r)
      = sqn A r := by
  unfold sqn
  simp only [Host.reduceAdd, Ideal.hostReduceAdd_def]
  refine (Ideal.hostReduceAdd_single reducesTo_S16384x32_S16384_d1 (by decide) _ _ (ix1 r)).trans ?_
  refine congrArg₂ (· + ·) rfl (Finset.sum_congr rfl fun k _ => ?_)
  exact congrArg (fun i => A i * A i) (lift_row _ r k)

/-- The column `hx`: `-½` times the squared norms of `X`'s rows. -/
theorem V_v4 (c : Dev nD) : (V m c main_v4 : S16384x1.Idx → EReal)
    = mulf (broadcastInDim S16384x1 ![] bcast_S_S16384x1 (constant (F := Ideal) S_ .f32 0xBF000000#32))
        (broadcastInDim S16384x1 ![0] bcast_S16384_S16384x1_0
          (Host.reduceAdd (F := Ideal) (mulf (Xa m c) (Xa m c)) (constant (F := Ideal) S_ .f32 0x00000000#32)
            reducesTo_S16384x32_S16384_d1 h_S_)) := by
  show StableHlo.after hostOps0 (fun b => m (c, b)) (Proc.devRef .tc main_v4) = _
  after_results

/-- The row `hy`: `-½` times the squared norms of `Y`'s rows, less the normalising constant, laid out as one row. -/
theorem V_v12 (c : Dev nD) : (V m c main_v12 : S1x16384.Idx → EReal)
    = shapeCast S1x16384
        (subf
          (mulf (broadcastInDim S16384x1 ![] bcast_S_S16384x1 (constant (F := Ideal) S_ .f32 0xBF000000#32))
            (broadcastInDim S16384x1 ![0] bcast_S16384_S16384x1_0
              (Host.reduceAdd (F := Ideal) (mulf (Ya m c) (Ya m c)) (constant (F := Ideal) S_ .f32 0x00000000#32)
                reducesTo_S16384x32_S16384_d1 h_S_)))
          (broadcastInDim S16384x1 ![] bcast_S_S16384x1 (constant (F := Ideal) S_ .f32 0x41EB3F8E#32)))
        shapeCasts_S16384x1_S1x16384 := by
  show StableHlo.after hostOps0 (fun b => m (c, b)) (Proc.devRef .tc main_v12) = _
  after_results
  rfl

/-- A scalar constant spread over a column reads the constant. -/
theorem splat_read (w : BitVec 32) (r : Fin 16384) (z : Fin 1) :
    broadcastInDim S16384x1 ![] bcast_S_S16384x1 (constant (F := Ideal) S_ .f32 w) (ix2 r z) = Ideal.ofBits .f32 w :=
  broadcastInDim_apply _ bcast_S_S16384x1 _ (ix2 r z) ix0 (fun a => a.elim0)

/-- A vector laid out as a column reads its entry. -/
theorem column_read (v : S16384.Idx → EReal) (r : Fin 16384) (z : Fin 1) :
    broadcastInDim S16384x1 ![0] bcast_S16384_S16384x1_0 v (ix2 r z) = v (ix1 r) :=
  broadcastInDim_apply _ bcast_S16384_S16384x1_0 v (ix2 r z) (ix1 r) (fun a => by
    match a with
    | ⟨0, _⟩ => show r.val = if (16384 : ℕ) = 1 then 0 else r.val; rw [if_neg (by decide)])

/-- Entry `r` of the column `hx`. -/
theorem hx_read (c : Dev nD) (r : Fin 16384) (z : Fin 1) :
    (V m c main_v4 : S16384x1.Idx → EReal) (ix2 r z) = hx (Xa m c) r := by
  rw [V_v4]
  unfold hx
  exact congrArg₂ (· * ·) (splat_read _ r z) ((column_read _ r z).trans (sqn_read _ r))

/-- Entry `j` of the row `hy`. -/
theorem hy_read (c : Dev nD) (j : Fin 16384) (z : Fin 1) :
    (V m c main_v12 : S1x16384.Idx → EReal) (ix2 z j) = hy (Ya m c) j := by
  rw [V_v12]
  refine (shapeCast_apply _ shapeCasts_S16384x1_S1x16384 (ix2 z j) (ix2 j (0 : Fin 1)) ?_).trans ?_
  · rw [Shape.rowMajor_val_two, Shape.rowMajor_val_two]
    show j.val * 1 + 0 = z.val * 16384 + j.val
    omega
  · unfold hy
    exact congrArg₂ (· - ·) (congrArg₂ (· * ·) (splat_read _ j 0) ((column_read _ j 0).trans (sqn_read _ j)))
      (splat_read _ j 0)

/-! ## The blocks of a grid point -/

/-- Which block of each array a grid point stages: the printed index maps, decided over the 128 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- Rows `2048 · (t / 16) …` of `X`. -/
theorem iblk0_apply (c : Dev nD) (t : Fin cfg0.N) (p : Fin 2048) (k : Fin 32) :
    (iblk m c 0 t : Vec Ideal S2048x32 .f32) (ix2 p k) = Xa m c (ix2 (row (2048 * (t.val / 16) + p.val)) k) := by
  have hN : t.val < 128 := lt_of_lt_of_eq t.isLt (show cfg0.N = 128 from N_0)
  obtain ⟨e0, e1, -⟩ := idx_facts t
  unfold iblk
  rw [View.read_apply]
  refine Eq.trans ?_ (congrFun (V_main_arg0 m c) _)
  show V m c main_arg0 _ = V m c main_arg0 _
  refine congrArg (V m c main_arg0) (funext fun a => Fin.ext ?_)
  match a with
  | ⟨0, _⟩ => show win0_0.index t (0 : Fin 2) * 2048 + 1 * p.val = (2048 * (t.val / 16) + p.val) % 16384; rw [e0]; omega
  | ⟨1, _⟩ => show win0_0.index t (1 : Fin 2) * 32 + 1 * k.val = k.val; rw [e1]; omega

/-- Rows `1024 · (t % 16) …` of `Y`. -/
theorem iblk1_apply (c : Dev nD) (t : Fin cfg0.N) (q : Fin 1024) (k : Fin 32) :
    (iblk m c 1 t : Vec Ideal S1024x32 .f32) (ix2 q k) = Ya m c (ix2 (row (1024 * (t.val % 16) + q.val)) k) := by
  have hN : t.val < 128 := lt_of_lt_of_eq t.isLt (show cfg0.N = 128 from N_0)
  obtain ⟨-, -, e0, e1, -⟩ := idx_facts t
  unfold iblk
  rw [View.read_apply]
  refine Eq.trans ?_ (congrFun (V_main_arg1 m c) _)
  show V m c main_arg1 _ = V m c main_arg1 _
  refine congrArg (V m c main_arg1) (funext fun a => Fin.ext ?_)
  match a with
  | ⟨0, _⟩ => show win0_1.index t (0 : Fin 2) * 1024 + 1 * q.val = (1024 * (t.val % 16) + q.val) % 16384; rw [e0]; omega
  | ⟨1, _⟩ => show win0_1.index t (1 : Fin 2) * 32 + 1 * k.val = k.val; rw [e1]; omega

/-- Entries `2048 · (t / 16) …` of the column `hx`. -/
theorem iblk2_apply (c : Dev nD) (t : Fin cfg0.N) (p : Fin 2048) (z : Fin 1) :
    (iblk m c 2 t : Vec Ideal S2048x1 .f32) (ix2 p z) = hx (Xa m c) (row (2048 * (t.val / 16) + p.val)) := by
  have hN : t.val < 128 := lt_of_lt_of_eq t.isLt (show cfg0.N = 128 from N_0)
  obtain ⟨-, -, -, -, e0, e1, -⟩ := idx_facts t
  rw [← hx_read m c _ (0 : Fin 1)]
  unfold iblk
  rw [View.read_apply]
  show V m c main_v4 _ = V m c main_v4 _
  refine congrArg (V m c main_v4) (funext fun a => Fin.ext ?_)
  match a with
  | ⟨0, _⟩ => show win0_2.index t (0 : Fin 2) * 2048 + 1 * p.val = (2048 * (t.val / 16) + p.val) % 16384; rw [e0]; omega
  | ⟨1, _⟩ => show win0_2.index t (1 : Fin 2) * 1 + 1 * z.val = 0; rw [e1]; omega

/-- Entries `1024 · (t % 16) …` of the row `hy`. -/
theorem iblk3_apply (c : Dev nD) (t : Fin cfg0.N) (z : Fin 1) (q : Fin 1024) :
    (iblk m c 3 t : Vec Ideal S1x1024 .f32) (ix2 z q) = hy (Ya m c) (row (1024 * (t.val % 16) + q.val)) := by
  have hN : t.val < 128 := lt_of_lt_of_eq t.isLt (show cfg0.N = 128 from N_0)
  obtain ⟨-, -, -, -, -, -, e0, e1, -⟩ := idx_facts t
  rw [← hy_read m c _ (0 : Fin 1)]
  unfold iblk
  rw [View.read_apply]
  show V m c main_v12 _ = V m c main_v12 _
  refine congrArg (V m c main_v12) (funext fun a => Fin.ext ?_)
  match a with
  | ⟨0, _⟩ => show win0_3.index t (0 : Fin 2) * 1 + 1 * z.val = 0; rw [e0]; omega
  | ⟨1, _⟩ => show win0_3.index t (1 : Fin 2) * 1024 + 1 * q.val = (1024 * (t.val % 16) + q.val) % 16384; rw [e1]; omega

/-- What one run of the body adds to row `p`'s running sum at grid point `t`: column block `t % 16`'s terms for row
    `2048 · (t / 16) + p`. -/
theorem addend_eq (c : Dev nD) (t : Fin cfg0.N) (p : Fin 2048) :
    Payload.blockAdd (iblk m c 0 t) (iblk m c 1 t) (iblk m c 3 t) p
      = blockSum (Xa m c) (Ya m c) (row (2048 * (t.val / 16) + p.val)) (t.val % 16) := by
  unfold Payload.blockAdd blockSum term dotp
  refine Finset.sum_congr rfl fun q _ => ?_
  rw [iblk3_apply m c t 0 q]
  refine congrArg Ideal.exp (congrArg₂ (· + ·) (Finset.sum_congr rfl fun k _ => ?_) rfl)
  rw [iblk0_apply m c t p k, iblk1_apply m c t q k]

end Cert.KernelIdeal.Blocks
end
-- ==== Proof.Chain.lean ====
/-
  What the output block holds after each grid point. The grid runs the sixteen column blocks of a row block one after the
  other; the output block is a column of 2048 running sums that stays in place while they run. After column block `j < 15`
  of row block `i`, entry `p` holds the block sums of column blocks `0 … j` for row `2048 i + p`; after the last one it
  holds the finished score of that row. By induction on the grid point.
-/
import proofs.«172552_j82635170775443_2_alg».proof.Proof.Pieces
import proofs.«172552_j82635170775443_2_alg».proof.Proof.Payload
import proofs.«172552_j82635170775443_2_alg».proof.Proof.Blocks

noncomputable section

open Idealize.ShloMosaic Idealize.ShloMosaic.TcCoe Idealize.SL.Sem
open Idealize.ShloMosaic.ValueIdx

namespace Cert.KernelIdeal.Chain

open Cert.KernelIdeal Cert.KernelIdeal.Gen Cert.Kde Cert.KernelIdeal.Blocks

variable (m : (ℓ : Loc nD τ sig) → Buf (Elt Ideal) ℓ)

/-! ## One grid point, as a function of its blocks and of what the point before left -/

theorem outsAt_A (c : Dev nD) (t : Fin cfg0.N) (h0 : t.val % 16 = 0) (h1 : ¬t.val % 16 = 15) :
    outsAt0 m c t.val t.isLt = k0_pay2 (iblk m c 0 t) (iblk m c 1 t) (iblk m c 3 t) (k0_pay1 (F := Ideal)) :=
  (outsAt0_A m c t h0 h1).trans
    (Pieces.out_A (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (fun h => h1 ((hcond0_1 t).mp h))
      (iblk m c 0 t) (iblk m c 1 t) (iblk m c 2 t) (iblk m c 3 t))

theorem outsAt_B (c : Dev nD) (t : Fin cfg0.N) (h0 : ¬t.val % 16 = 0) (h1 : ¬t.val % 16 = 15) :
    outsAt0 m c t.val t.isLt = k0_pay2 (iblk m c 0 t) (iblk m c 1 t) (iblk m c 3 t)
      (outsAt0 m c (t.val - 1) (Nat.lt_of_le_of_lt (Nat.sub_le _ _) t.isLt)) :=
  (outsAt0_B m c t h0 h1).trans
    (Pieces.out_B (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (fun h => h1 ((hcond0_1 t).mp h))
      (iblk m c 0 t) (iblk m c 1 t) (iblk m c 2 t) (iblk m c 3 t)
      (outsAt0 m c (t.val - 1) (Nat.lt_of_le_of_lt (Nat.sub_le _ _) t.isLt)))

theorem outsAt_C (c : Dev nD) (t : Fin cfg0.N) (h0 : ¬t.val % 16 = 0) (h1 : t.val % 16 = 15) :
    outsAt0 m c t.val t.isLt = k0_pay3 (k0_pay2 (iblk m c 0 t) (iblk m c 1 t) (iblk m c 3 t)
      (outsAt0 m c (t.val - 1) (Nat.lt_of_le_of_lt (Nat.sub_le _ _) t.isLt))) (iblk m c 2 t) :=
  (outsAt0_C m c t h0 h1).trans
    (Pieces.out_C (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) ((hcond0_1 t).mpr h1)
      (iblk m c 0 t) (iblk m c 1 t) (iblk m c 2 t) (iblk m c 3 t)
      (outsAt0 m c (t.val - 1) (Nat.lt_of_le_of_lt (Nat.sub_le _ _) t.isLt)))

/-! ## The same, entry by entry -/

/-- The row of the point sets that entry `p` of the output block stands for at grid point `n`. -/
abbrev rowOf (n : ℕ) (p : Fin 2048) : Fin 16384 := row (2048 * (n / 16) + p.val)

/-- A first column block: the block's sum alone. -/
theorem at_A (c : Dev nD) (t : Fin cfg0.N) (h0 : t.val % 16 = 0) (h1 : ¬t.val % 16 = 15) (p : Fin 2048) (z : Fin 1) :
    outsAt0 m c t.val t.isLt (ix2 p z) = blockSum (Xa m c) (Ya m c) (rowOf t.val p) (t.val % 16) := by
  refine (congrFun (outsAt_A m c t h0 h1) (ix2 p z)).trans ?_
  refine (Payload.pay2_apply (iblk m c 0 t) (iblk m c 1 t) (iblk m c 3 t) (k0_pay1 (F := Ideal)) p z).trans ?_
  rw [Payload.pay1_apply, zero_add, addend_eq m c t p]

/-- A middle column block: what the point before left, plus the block's sum. -/
theorem at_B (c : Dev nD) (t : Fin cfg0.N) (h0 : ¬t.val % 16 = 0) (h1 : ¬t.val % 16 = 15) (p : Fin 2048) (z : Fin 1) :
    outsAt0 m c t.val t.isLt (ix2 p z)
      = outsAt0 m c (t.val - 1) (Nat.lt_of_le_of_lt (Nat.sub_le _ _) t.isLt) (ix2 p z)
        + blockSum (Xa m c) (Ya m c) (rowOf t.val p) (t.val % 16) := by
  refine (congrFun (outsAt_B m c t h0 h1) (ix2 p z)).trans ?_
  refine (Payload.pay2_apply (iblk m c 0 t) (iblk m c 1 t) (iblk m c 3 t)
    (outsAt0 m c (t.val - 1) (Nat.lt_of_le_of_lt (Nat.sub_le _ _) t.isLt)) p z).trans ?_
  rw [addend_eq m c t p]

/-- The last column block: the same, then the scaling by `exp hx` and by `2⁻¹⁴`. -/
theorem at_C (c : Dev nD) (t : Fin cfg0.N) (h0 : ¬t.val % 16 = 0) (h1 : t.val % 16 = 15) (p : Fin 2048) (z : Fin 1) :
    outsAt0 m c t.val t.isLt (ix2 p z)
      = ((outsAt0 m c (t.val - 1) (Nat.lt_of_le_of_lt (Nat.sub_le _ _) t.isLt) (ix2 p z)
          + blockSum (Xa m c) (Ya m c) (rowOf t.val p) (t.val % 16)) * Ideal.exp (hx (Xa m c) (rowOf t.val p)))
        * Ideal.ofBits .f32 0x38800000#32 := by
  refine (congrFun (outsAt_C m c t h0 h1) (ix2 p z)).trans ?_
  refine (Payload.pay3_apply _ (iblk m c 2 t) (ix2 p z)).trans ?_
  rw [iblk2_apply m c t p z]
  refine congrArg (fun a => (a * Ideal.exp (hx (Xa m c) (rowOf t.val p))) * Ideal.ofBits .f32 0x38800000#32) ?_
  refine (Payload.pay2_apply (iblk m c 0 t) (iblk m c 1 t) (iblk m c 3 t)
    (outsAt0 m c (t.val - 1) (Nat.lt_of_le_of_lt (Nat.sub_le _ _) t.isLt)) p z).trans ?_
  rw [addend_eq m c t p]

/-! ## The running sums, by induction on the grid point -/

/-- What entry `p` of the output block holds after grid point `n`. -/
def state (c : Dev nD) (n : ℕ) (p : Fin 2048) : EReal :=
  if n % 16 = 15 then ker (Xa m c) (Ya m c) (rowOf n p)
  else ∑ b ∈ Finset.range (n % 16 + 1), blockSum (Xa m c) (Ya m c) (rowOf n p) b

theorem outsAt_eq (c : Dev nD) : ∀ (n : ℕ) (h : n < cfg0.N) (p : Fin 2048) (z : Fin 1),
    outsAt0 m c n h (ix2 p z) = state m c n p := by
  intro n
  induction n using Nat.strong_induction_on with
  | _ n ih =>
    intro h p z
    have hN : n < 128 := lt_of_lt_of_eq h (show cfg0.N = 128 from N_0)
    by_cases h0 : n % 16 = 0
    · have h1 : ¬n % 16 = 15 := by omega
      refine (at_A m c ⟨n, h⟩ h0 h1 p z).trans ?_
      show blockSum (Xa m c) (Ya m c) (rowOf n p) (n % 16) = state m c n p
      unfold state
      rw [if_neg h1, h0, zero_add, Finset.sum_range_one]
    · have hr : rowOf (n - 1) p = rowOf n p := by
        show row (2048 * ((n - 1) / 16) + p.val) = row (2048 * (n / 16) + p.val)
        rw [show (n - 1) / 16 = n / 16 by omega]
      by_cases h1 : n % 16 = 15
      · refine (at_C m c ⟨n, h⟩ h0 h1 p z).trans ?_
        show ((outsAt0 m c (n - 1) _ (ix2 p z) + blockSum (Xa m c) (Ya m c) (rowOf n p) (n % 16))
          * Ideal.exp (hx (Xa m c) (rowOf n p))) * Ideal.ofBits .f32 0x38800000#32 = state m c n p
        rw [ih (n - 1) (by omega)]
        unfold state
        rw [if_pos h1, if_neg (show ¬(n - 1) % 16 = 15 by omega), hr, show (n - 1) % 16 + 1 = 15 by omega, h1,
          ← Finset.sum_range_succ]
        unfold ker
        rw [← sum_blockSum]
      · refine (at_B m c ⟨n, h⟩ h0 h1 p z).trans ?_
        show outsAt0 m c (n - 1) _ (ix2 p z) + blockSum (Xa m c) (Ya m c) (rowOf n p) (n % 16) = state m c n p
        rw [ih (n - 1) (by omega)]
        unfold state
        rw [if_neg h1, if_neg (show ¬(n - 1) % 16 = 15 by omega), hr, show (n - 1) % 16 + 1 = n % 16 by omega,
          ← Finset.sum_range_succ]

end Cert.KernelIdeal.Chain
end
-- ==== Proof.Final.lean ====
/-
  The result. Each row block's finished column of scores is written back once, after its last column block; the eight write-backs
  tile the 16384 × 1 array the region returns, which the program then reads as a vector of 16384 scores.
-/
import proofs.«172552_j82635170775443_2_alg».proof.Proof.Chain
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.Final

open Cert.KernelIdeal Cert.KernelIdeal.Gen Cert.Kde Cert.KernelIdeal.Blocks Cert.KernelIdeal.Chain

variable (m : (ℓ : Loc nD τ sig) → Buf (Elt Ideal) ℓ) (ρ : Dev nD → PrngReg)

/-- The column of scores: entry `(r, 0)` is the score of row `r`. -/
def scoreCol (c : Dev nD) : S16384x1.Idx → EReal := fun i => ker (Xa m c) (Ya m c) ⟨(i 0).val, idx2_lt0 i⟩

/-- The output block after a grid point, at any entry. -/
theorem outsAt_apply (c : Dev nD) (n : ℕ) (h : n < cfg0.N) (i : S2048x1.Idx) :
    outsAt0 m c n h i = state m c n ⟨(i 0).val, idx2_lt0 i⟩ := by
  obtain ⟨p, z, rfl⟩ : ∃ (p : Fin 2048) (z : Fin 1), i = ix2 p z := ⟨i 0, i 1, eq_ix2 i⟩
  exact outsAt_eq m c n h p z

/-- What a row block's last grid point writes back is that row block of the column of scores. -/
theorem flushed_eq (c : Dev nD) (t : Fin cfg0.N) (hf : (cfg0.win 4).flush t = true) :
    (dats m 0 c).flushed 4 t = ((cfg0.win 4).blk t).view.read (Elt Ideal) (scoreCol m c) := by
  have hN : t.val < 128 := lt_of_lt_of_eq t.isLt (show cfg0.N = 128 from N_0)
  have h15 : t.val % 16 = 15 := (flush0_4 t).mp hf
  obtain ⟨-, -, -, -, -, -, -, -, e0, e1⟩ := idx_facts t
  show (cfg0.win 4).cut (grid0.coords t) ((dats m 0 c).after 4 t) = _
  rw [after0_4]
  funext y
  rw [View.read_apply]
  show outsAt0 m c t.val t.isLt y = scoreCol m c (((cfg0.win 4).blk t).view.emb y)
  rw [outsAt_apply m c t.val t.isLt y]
  unfold state scoreCol
  rw [if_pos h15]
  refine congrArg (ker (Xa m c) (Ya m c)) (Fin.ext ?_)
  have hy : (y 0).val < 2048 := (y 0).isLt
  show (2048 * (t.val / 16) + (y 0).val) % 16384 = win0_4.index t (0 : Fin 2) * 2048 + 1 * (y 0).val
  rw [e0]
  omega

/-- An entry of the array is in grid point `t`'s block when each coordinate is in the block's range. -/
theorem mem_blk (t : Fin cfg0.N) (i : S16384x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v13).slice (win0_4.rect t)).set ↔ _
  rw [View.set_slice_whole, Rect.mem_set_unit]
  exact Iff.rfl

/-- Row `r` is written back by the last grid point of row block `r / 2048`. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  have hlt : 16 * ((i 0).val / 2048) + 15 < cfg0.N := by rw [show cfg0.N = 128 from N_0]; omega
  refine ⟨⟨16 * ((i 0).val / 2048) + 15, hlt⟩, (flush0_4 _).mpr (by show (16 * ((i 0).val / 2048) + 15) % 16 = 15; omega), ?_⟩
  obtain ⟨-, -, -, -, -, -, -, -, e0, e1⟩ := idx_facts ⟨16 * ((i 0).val / 2048) + 15, hlt⟩
  rw [mem_blk]
  intro a
  match a with
  | ⟨0, _⟩ =>
    show win0_4.index _ (0 : Fin 2) * 2048 ≤ (i 0).val ∧ (i 0).val < win0_4.index _ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win0_4.index _ (1 : Fin 2) * 1 ≤ (i 1).val ∧ (i 1).val < win0_4.index _ (1 : Fin 2) * 1 + 1
    rw [e1]
    omega

/-- The array the region returns is the column of scores. -/
theorem final (c : Dev nD) : (dats m 0 c).arrAt 4 cfg0.N = scoreCol m c :=
  (dats m 0 c).arrAt_eq_of_cover 4 (scoreCol m c) (flushed_eq m c) cover

/-! ## The program's result -/

/-- The vector of scores: entry `r` is the score of row `r`. -/
def score (c : Dev nD) : S16384.Idx → EReal := fun i => ker (Xa m c) (Ya m c) ⟨(i 0).val, (i 0).isLt⟩

/-- The line after the region reads the 16384 × 1 array as a vector of 16384 entries. -/
theorem tail_eq (c : Dev nD) : Pipeline.afterTail₀ cfgs (dats m) 0 (V0 m) [hostOps1] c main_v14 = score m c := by
  unfold Pipeline.afterTail₀
  show StableHlo.after hostOps1 _ (Proc.devRef .tc main_v14) = _
  after_results
  show shapeCast S16384 (Pipeline.withArrays (cfgs 0).spec c (V0 m c) (fun w => (dats m 0 c).arrAt w (cfgs 0).N)
    (Proc.devRef .tc main_v13)) shapeCasts_S16384x1_S16384 = _
  rw [show Pipeline.withArrays (cfgs 0).spec c (V0 m c) (fun w => (dats m 0 c).arrAt w (cfgs 0).N) (Proc.devRef .tc main_v13)
      = scoreCol m c from (Pipeline.withArrays_arr spec0 launch0.win.arr_inj c _ _ 4).trans (final m c)]
  funext i
  refine (shapeCast_apply _ shapeCasts_S16384x1_S16384 i (ix2 (i 0) (0 : Fin 1)) ?_).trans ?_
  · rw [Shape.rowMajor_val_two, Shape.rowMajor_val_one]
    show (i 0).val * 1 + 0 = (i 0).val
    omega
  · rfl

/-- The run, read: the result at the vector of scores, the two point sets unchanged. -/
theorem run : θ_run defs (onTc (τ := τ) (main (F := Ideal))) ⟨m, fun _ => 0, ρ⟩ fun r => ∀ c : Dev nD,
      r.2.mem ((c : Thread nD τ).loc main_v14) = score m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v14 (Pipeline.mem_restRefs_of main_v14 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Final
end
-- ==== Proof.RefValue.lean ====
/-
  The reference's result, read one entry at a time: entry `r` is the sum over all points `y_j` of
  `exp (-½ · ((‖x_r‖² + ‖y_j‖²) - 2 · ⟨x_r, y_j⟩) - c)`, divided by the number of points.
-/
import proofs.«172552_j82635170775443_2_alg».proof.Proof.Gen.ReferenceIdeal.Read
import proofs.«172552_j82635170775443_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## Which entry of its operand each layout step reads -/

/-- Summing the 16384 × 16384 score matrix along its rows: entry `r` sums the entries `(r, j)`. -/
theorem e19 (r j : Fin 16384) : idx_main_v19 (ix1 r) j = ix2 r j :=
  funext fun a => Fin.ext (by match a with | ⟨0, _⟩ => rfl | ⟨1, _⟩ => rfl)
/-- The column of squared norms `‖x_r‖²` spread along the rows of the matrix, -/
theorem e6 (r j : Fin 16384) : idx_main_v6 (ix2 r j) = ix2 r (0 : Fin 1) :=
  funext fun a => Fin.ext (by match a with | ⟨0, _⟩ => rfl | ⟨1, _⟩ => rfl)
theorem e2 (r : Fin 16384) (z : Fin 1) : idx_main_v2 (ix2 r z) = ix1 r :=
  funext fun a => Fin.ext (by match a with | ⟨0, _⟩ => rfl)
theorem e1 (r : Fin 16384) (k : Fin 32) : idx_main_v1 (ix1 r) k = ix2 r k :=
  funext fun a => Fin.ext (by match a with | ⟨0, _⟩ => rfl | ⟨1, _⟩ => rfl)
/-- the row of squared norms `‖y_j‖²` spread down its columns, -/
theorem e7 (r j : Fin 16384) : idx_main_v7 (ix2 r j) = ix2 (0 : Fin 1) j :=
  funext fun a => Fin.ext (by match a with | ⟨0, _⟩ => rfl | ⟨1, _⟩ => rfl)
theorem e5 (z : Fin 1) (j : Fin 16384) : idx_main_v5 (ix2 z j) = ix1 j :=
  funext fun a => Fin.ext (by match a with | ⟨0, _⟩ => rfl)
theorem e4 (j : Fin 16384) (k : Fin 32) : idx_main_v4 (ix1 j) k = ix2 j k :=
  funext fun a => Fin.ext (by match a with | ⟨0, _⟩ => rfl | ⟨1, _⟩ => rfl)
/-- and the product `X Yᵀ`: entry `(r, j)` pairs row `r` of `X` with row `j` of `Y`. -/
theorem el (r j : Fin 16384) (k : Fin 32) : lidx_main_v10 (ix2 r j) k = ix2 r k :=
  funext fun a => Fin.ext (by match a with | ⟨0, _⟩ => rfl | ⟨1, _⟩ => rfl)
theorem er (r j : Fin 16384) (k : Fin 32) : ridx_main_v10 (ix2 r j) k = ix2 k j :=
  funext fun a => Fin.ext (by match a with | ⟨0, _⟩ => rfl | ⟨1, _⟩ => rfl)
theorem e9 (k : Fin 32) (j : Fin 16384) : idx_main_v9 (ix2 k j) = ix2 j k :=
  funext fun a => Fin.ext (by match a with | ⟨0, _⟩ => rfl | ⟨1, _⟩ => rfl)

/-- Entry `r` of the reference's result is the density score of `x_r`. -/
theorem ref_apply (X Y : (⟨S16384x32, .f32⟩ : BufTy).Contents (Elt Ideal)) (r : Fin 16384) :
    val_main_v21 (F := Ideal) X Y (ix1 r) = Cert.Kde.ref X Y r := by
  simp only [val_main_v21_apply, val_main_v20_apply, val_main_cst_5_apply, val_main_v19_apply, val_main_cst_4_apply,
    val_main_v18_apply, val_main_v17_apply, val_main_v16_apply, val_main_cst_3_apply, val_main_v15_apply, val_main_v14_apply,
    val_main_cst_2_apply, val_main_v13_apply, val_main_v12_apply, val_main_v11_apply, val_main_cst_1_apply, val_main_v10_apply,
    val_main_v9_apply, val_main_v8_apply, val_main_v7_apply, val_main_v6_apply, val_main_v5_apply, val_main_v4_apply,
    val_main_cst_0_apply, val_main_v3_apply, val_main_v2_apply, val_main_v1_apply, val_main_cst_apply, val_main_v0_apply,
    e19, e6, e2, e1, e7, e5, e4, el, er, e9,
    Ideal.ofBits_def, Ideal.mulf_def, Ideal.addf_def, Ideal.subf_def, Ideal.hostUnary_exp_def, Ideal.hostDivf_def]
  rfl

end Cert.ReferenceIdeal.RefValue

end
-- ==== Proof.Finite.lean ====
/-
  The precondition, read back: when every entry of both inputs has absolute value below `+∞`, every entry is a real number.
-/
import proofs.«172552_j82635170775443_2_alg».proof.Pre_finite_inputs
import Idealize.ShloMosaic.Lib.ReduceAll
import Idealize.ShloMosaic.Lib.ValueIdx
import Idealize.ShloMosaic.PureOps.Ideal

noncomputable section

open Idealize.ShloMosaic

namespace Cert.Pre_finite_inputs.Finite

open Cert.Pre_finite_inputs

instance : Subsingleton S_.Idx := ⟨fun a b => funext fun d => d.elim0⟩

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- Under the precondition both inputs are arrays of real numbers. -/
theorem real_of_pre [Facts] (A B : FVec Ideal S16384x32 .f32) (h : fn (F := Ideal) A B = fun _ => 1#1) :
    (∀ i, ∃ r : ℝ, A i = (r : EReal)) ∧ (∀ i, ∃ r : ℝ, B i = (r : EReal)) := by
  have h0 := congrFun h ValueIdx.ix0
  dsimp only [fn] at h0
  obtain ⟨ha, hb⟩ := IntOp.andi_eq_one.1 h0
  exact ⟨fun i => real_of_abs_lt (A i) (Host.reduce_andi_all _ _ _ _ _ ha i),
    fun i => real_of_abs_lt (B i) (Host.reduce_andi_all _ _ _ _ _ hb i)⟩

end Cert.Pre_finite_inputs.Finite
end
-- ==== Proof.lean ====
/-
  The certificate of the Gaussian kernel density score. For each of the 16384 points `x_r` the program computes
  `(1/n) Σ_j exp (-½ ‖x_r - y_j‖² - c)` over the 16384 points `y_j`, `n = 16384`.

  The reference expands the squared distance as `‖x_r‖² + ‖y_j‖² - 2 ⟨x_r, y_j⟩` and divides the sum by `n`. The kernel walks a
  grid of 8 row blocks by 16 column blocks; for a row block it accumulates, column block after column block, the row sums of
  `exp (⟨x_r, y_j⟩ + (-½ ‖y_j‖² - c))`, and after the last column block multiplies by `exp (-½ ‖x_r‖²)` and by `2⁻¹⁴`.

  Over the extended reals the running sums add up in any grouping, so the kernel's result is the whole sum over `j`, scaled
  (Chain, Final). On finite inputs every quantity is a real number, the exponential of a sum is the product of the
  exponentials, the factor that does not depend on `j` leaves the sum, and `2⁻¹⁴` is exactly `1/16384` (Spec): the two
  programs compute the same number at every entry.
-/
import proofs.«172552_j82635170775443_2_alg».proof.Defs
import proofs.«172552_j82635170775443_2_alg».proof.Proof.Gen.Kernel
import proofs.«172552_j82635170775443_2_alg».proof.Proof.Gen.Kernel.Skeleton
import proofs.«172552_j82635170775443_2_alg».proof.Proof.Gen.Kernel.Launch
import proofs.«172552_j82635170775443_2_alg».proof.Proof.Gen.Kernel.Points
import proofs.«172552_j82635170775443_2_alg».proof.Proof.Gen.Kernel.Frame
import proofs.«172552_j82635170775443_2_alg».proof.Proof.Gen.KernelIdeal
import proofs.«172552_j82635170775443_2_alg».proof.Proof.Gen.KernelIdeal.Skeleton
import proofs.«172552_j82635170775443_2_alg».proof.Proof.Gen.KernelIdeal.Launch
import proofs.«172552_j82635170775443_2_alg».proof.Proof.Gen.KernelIdeal.Points
import proofs.«172552_j82635170775443_2_alg».proof.Proof.Gen.KernelIdeal.Frame
import proofs.«172552_j82635170775443_2_alg».proof.Proof.Gen.ReferenceIdeal
import proofs.«172552_j82635170775443_2_alg».proof.Proof.Gen.ReferenceIdeal.Run
import proofs.«172552_j82635170775443_2_alg».proof.Proof.Gen.ReferenceIdeal.Read
import proofs.«172552_j82635170775443_2_alg».proof.Proof.Gen.Pre_finite_inputs
import proofs.«172552_j82635170775443_2_alg».proof.Proof.Final
import proofs.«172552_j82635170775443_2_alg».proof.Proof.RefValue
import proofs.«172552_j82635170775443_2_alg».proof.Proof.Finite
import Idealize.ShloMosaic.Adequacy
import Idealize.ShloMosaic.Init

noncomputable section

namespace Cert.Proof

open Idealize.ShloMosaic Idealize.ShloMosaic.ValueIdx Idealize.SL.Sem

/-- The kernel as printed runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel's text is read over the extended reals as it stands: nothing was rewritten. -/
theorem preserves : Cert.preserves_Kernel_KernelIdeal := trivial

/-- On finite inputs both programs end with the same vector of scores. -/
theorem algebraic : Cert.algebraic_KernelIdeal_ReferenceIdeal := by
  intro m ρ m' ρ' hpre hagree
  refine ⟨fun c => Cert.KernelIdeal.Final.score m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _).trans ?_
  refine (congrArg₂ (Cert.ReferenceIdeal.Read.val_main_v21 (F := Ideal)) (hagree c).1 (hagree c).2).trans ?_
  funext i
  obtain ⟨r, rfl⟩ : ∃ r : Fin 16384, i = ix1 r := ⟨i 0, eq_ix1 i⟩
  rw [Cert.ReferenceIdeal.RefValue.ref_apply]
  obtain ⟨hx, hy⟩ := Cert.Pre_finite_inputs.Finite.real_of_pre _ _ (hpre c)
  choose x hx' using hx
  choose y hy' using hy
  have key := Cert.Kde.ker_eq_ref x y r
  rw [← show (m ((c.tc : Thread Cert.KernelIdeal.nD Cert.KernelIdeal.τ).loc Cert.KernelIdeal.main_arg0) : Cert.Kde.Mat)
      = fun i => (x i : EReal) from funext hx',
    ← show (m ((c.tc : Thread Cert.KernelIdeal.nD Cert.KernelIdeal.τ).loc Cert.KernelIdeal.main_arg1) : Cert.Kde.Mat)
      = fun i => (y i : EReal) from funext hy'] at key
  exact key.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
